-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S64x262144 : Shape := ⟨2, ![64, 262144]⟩
abbrev S64x128 : Shape := ⟨2, ![64, 128]⟩
abbrev S16x131072 : Shape := ⟨2, ![16, 131072]⟩
abbrev S16x128 : Shape := ⟨2, ![16, 128]⟩
abbrev S16x1 : Shape := ⟨2, ![16, 1]⟩
abbrev S16x16384 : Shape := ⟨2, ![16, 16384]⟩
abbrev S16 : Shape := ⟨1, ![16]⟩
abbrev S64x1 : Shape := ⟨2, ![64, 1]⟩
abbrev S64 : Shape := ⟨1, ![64]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S64x128, .f32⟩
  | .hbm, ⟨5, _⟩ => ⟨S64x1, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S16x131072, .f32⟩
  | .local _ .vmem, ⟨1, _⟩ => ⟨S16x131072, .f32⟩
  | .local _ .vmem, ⟨2, _⟩ => ⟨S16x131072, .f32⟩
  | .local _ .vmem, ⟨3, _⟩ => ⟨S16x131072, .f32⟩
  | .local _ .vmem, ⟨4, _⟩ => ⟨S16x128, .f32⟩
  | .local _ .vmem, ⟨5, _⟩ => ⟨S16x128, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_mult1 : BitVec 32 :=
  let c0_i32_1 : BitVec 32 := 0#32
  let c16384_i32 : BitVec 32 := 16384#32
  let v3 : BitVec 32 := Scalar.muli c0_i32_1 c16384_i32
  v3
def k0_off1 (c0_i32_1 : BitVec 32) : Fin 2 → Nat :=
  let c0 : Index := 0#32
  let c16384_i32 : BitVec 32 := 16384#32
  let v3 : BitVec 32 := Scalar.muli c0_i32_1 c16384_i32
  let v4 : BitVec 32 := v3
  let v5 : Index := Scalar.indexCast v4
  ![0, v5.toNat]
def k0_mult2 : BitVec 32 :=
  let c1_i32 : BitVec 32 := 1#32
  let c16384_i32_17 : BitVec 32 := 16384#32
  let v33 : BitVec 32 := Scalar.muli c1_i32 c16384_i32_17
  v33
def k0_mult3 : BitVec 32 :=
  let c2_i32 : BitVec 32 := 2#32
  let c16384_i32_35 : BitVec 32 := 16384#32
  let v63 : BitVec 32 := Scalar.muli c2_i32 c16384_i32_35
  v63
def k0_mult4 : BitVec 32 :=
  let c3_i32 : BitVec 32 := 3#32
  let c16384_i32_53 : BitVec 32 := 16384#32
  let v93 : BitVec 32 := Scalar.muli c3_i32 c16384_i32_53
  v93
def k0_mult5 : BitVec 32 :=
  let c4_i32 : BitVec 32 := 4#32
  let c16384_i32_71 : BitVec 32 := 16384#32
  let v123 : BitVec 32 := Scalar.muli c4_i32 c16384_i32_71
  v123
def k0_mult6 : BitVec 32 :=
  let c5_i32 : BitVec 32 := 5#32
  let c16384_i32_89 : BitVec 32 := 16384#32
  let v153 : BitVec 32 := Scalar.muli c5_i32 c16384_i32_89
  v153
def k0_mult7 : BitVec 32 :=
  let c6_i32 : BitVec 32 := 6#32
  let c16384_i32_107 : BitVec 32 := 16384#32
  let v183 : BitVec 32 := Scalar.muli c6_i32 c16384_i32_107
  v183
def k0_mult8 : BitVec 32 :=
  let c7_i32 : BitVec 32 := 7#32
  let c16384_i32_125 : BitVec 32 := 16384#32
  let v213 : BitVec 32 := Scalar.muli c7_i32 c16384_i32_125
  v213
def k0_cond2 (i : grid0.Coords) : BitVec 1 :=
  let arg1 : BitVec 32 := BitVec.ofNat 32 (i 1).val
  let c1_i32_143 : BitVec 32 := 1#32
  let v243 : BitVec 1 := Scalar.cmpi .eq arg1 c1_i32_143
  let v244 : BitVec 32 := Scalar.extui v243
  let c0_i32_144 : BitVec 32 := 0#32
  let v245 : BitVec 1 := Scalar.cmpi .ne v244 c0_i32_144
  v245

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x1x512x512_S64x262144 : S64x1x512x512.ShapeCasts S64x262144
  inb_S16x1_S16x1_0_0 : ∀ a, (![0, 0] : Fin 2 → Nat) a + S16x1.size a ≤ S16x1.size a
  h_S16x1 : 0 < S16x1.numel
  shapeCasts_S16x1_S16x1 : S16x1.ShapeCasts S16x1
  h_S16x16384 : 0 < S16x16384.numel
  shapeCasts_S16x16384_S16x16384 : S16x16384.ShapeCasts S16x16384
  reduces_S16x16384_S16 : S16x16384.Reduces [1] S16
  shapeCasts_S16_S16x1 : S16.ShapeCasts S16x1
  broadcasts_S16x1_S16x128 : S16x1.Broadcasts S16x128
  inb_S16x128_S16x128_0_0 : ∀ a, (![0, 0] : Fin 2 → Nat) a + S16x128.size a ≤ S16x128.size a
  h_S16x128 : 0 < S16x128.numel
  slices_S64x128_S64x1_0_0 : S64x128.Slices ![0, 0] S64x1
  shapeCasts_S64x1_S64 : S64x1.ShapeCasts S64
  reducesTo_S64_S_d0 : S64.ReducesTo [0] S_
  h_S_ : 0 < S_.numel
  hrank0 : 0 < grid0.rank
  k0_mult1_dvd : 16384 ∣ k0_mult1.toNat
  k0_off1_inb : ∀ (r : Fin 8), ∀ a, (k0_off1 (BitVec.ofNat 32 r.val)) a + S16x16384.size a ≤ S16x131072.size a
  k0_mult2_dvd : 16384 ∣ k0_mult2.toNat
  k0_mult3_dvd : 16384 ∣ k0_mult3.toNat
  k0_mult4_dvd : 16384 ∣ k0_mult4.toNat
  k0_mult5_dvd : 16384 ∣ k0_mult5.toNat
  k0_mult6_dvd : 16384 ∣ k0_mult6.toNat
  k0_mult7_dvd : 16384 ∣ k0_mult7.toNat
  k0_mult8_dvd : 16384 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x131072.size a ≤ S64x262144.size a
  hwx0_0 : ∀ i : grid0.Coords, EltTy.bits .f32 = 32 ∨ (Rect.block (s := S64x262144) S16x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x131072.size a ≤ S64x262144.size a
  hwx0_1 : ∀ i : grid0.Coords, EltTy.bits .f32 = 32 ∨ (Rect.block (s := S64x262144) S16x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S64x128.size a
  hwx0_2 : ∀ i : grid0.Coords, EltTy.bits .f32 = 32 ∨ (Rect.block (s := S64x128) S16x128.size (cc0_transform_2 i) (hinb0_2 i)).WholeWords (EltTy.packing .f32)

variable [Facts₀]

abbrev win0_0 : Pipeline.Window sig grid0 :=
  Pipeline.Window.ofSpec (Memref.whole main_v0) S16x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x512x512 : Shape := ⟨4, ![64, 1, 512, 512]⟩
abbrev S64x262144 : Shape := ⟨2, ![64, 262144]⟩
abbrev S_ : Shape := ⟨0, ![]⟩
abbrev S64 : Shape := ⟨1, ![64]⟩

abbrev nBuf : Space → Nat
  | .hbm => 36
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64x262144, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .i1⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  shapeCasts_S64x1x512x512_S64x262144 : S64x1x512x512.ShapeCasts S64x262144
  reducesTo_S64x262144_S64_d1 : S64x262144.ReducesTo [1] S64
  h_S_ : 0 < S_.numel
  bcast_S_S64 : S_.BroadcastsInDim S64 (![] : Fin 0 → Fin S64.rank)
  reducesTo_S64_S_d0 : S64.ReducesTo [0] S_

variable [Facts₀]

class Facts : Prop extends Facts₀ where

variable [Facts]
-- ==== Proof.KernPieces.lean ====
/-
  What the kernel body leaves in its three row accumulators and in its output block, as pure functions of the
  two input blocks and of the accumulators' contents on entry.  A block of 16 rows by 131072 columns is read in
  eight slabs of 16384 columns; each slab's row sums are added to an accumulator column, slab after slab.  At a
  first point the accumulators start from the zero column; at a last point they start from what the point before
  left, and the output block is the row loss of the three finished accumulators, repeated along its 128 lanes.
-/
import proofs.«117182_j24386824307351_2_alg».proof.Proof.Gen.KernelIdeal.Frame
import Idealize.ShloMosaic.Lib.Pipeline.Value
import Idealize.ShloMosaic.Lib.Tactic

noncomputable section

namespace Cert.Dice.Kern

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl

/-- A load of a whole buffer after stores of which the LAST wrote the whole buffer reads that store's value. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- One accumulation: the column `acc` plus the row sums of the slab `V`. -/
def rowAcc (V : FVec F S16x16384 .f32) (acc : Vec F S16x1 .f32) : FVec F S16x1 .f32 :=
  addf acc (shapeCast S16x1 (multiReduction .add [1] S16 V 0x00000000#32 reduces_S16x16384_S16 (.inl rfl) rfl)
    shapeCasts_S16_S16x1)

/-- Eight accumulations in slab order. -/
def chain8 (V : Fin 8 → FVec F S16x16384 .f32) (init : Vec F S16x1 .f32) : FVec F S16x1 .f32 :=
  rowAcc (V 7) (rowAcc (V 6) (rowAcc (V 5) (rowAcc (V 4) (rowAcc (V 3) (rowAcc (V 2) (rowAcc (V 1) (rowAcc (V 0) init)))))))

theorem slab_inb (k : Fin 8) : ∀ a : Fin 2, (![0, 16384 * k.val] : Fin 2 → Nat) a + S16x16384.size a ≤ S16x131072.size a := by
  intro a
  have hk := k.isLt
  match a with
  | ⟨0, _⟩ => show 0 + 16 ≤ 16; omega
  | ⟨1, _⟩ => show 16384 * k.val + 16384 ≤ 131072; omega

/-- Slab `k` of a block: its columns 16384·k … 16384·k + 16383. -/
def slabs (x : Vec F S16x131072 .f32) (k : Fin 8) : Vec F S16x16384 .f32 :=
  View.ld x (Rect.unit ![0, 16384 * k.val] S16x16384.size (slab_inb k))

/-- The zero column the first point stores. -/
def zeroCol : Vec F S16x1 .f32 := broadcast S16x1 (Scalar.ofBits .f32 0x00000000#32)

/-! ## A first point of a row block: the accumulators start from zero -/

set_option maxHeartbeats 1000000 in
/-- The first accumulator after a first point: the zero column plus the row sums of the first block's slabs. -/
theorem firstAcc0 (c : Dev nD) (i : grid0.Coords) (arg2 : Memref sig .tc .vmem S16x131072 .f32) (harg2 : arg2.IsWhole) (arg3 : Memref sig .tc .vmem S16x131072 .f32) (harg3 : arg3.IsWhole) (arg4 : Memref sig .tc .vmem S16x128 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (hc0 : cond0_0 i) (hc1 : ¬cond0_1 i)
    (x0 : Vec F S16x131072 .f32) (x1 : Vec F S16x131072 .f32) :
    sout0_A_0 (F := F) c i arg2 harg2 arg3 harg3 arg4 harg4 arg5 harg5 arg6 harg6 arg7 harg7 hc0 hc1 x0 x1 = chain8 (slabs x0) zeroCol := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  simp only [View.canon_cons_unit_zero (S := S16x1) hz2, View.canon_cons_unit_zero (S := S16x128) hz2,
    readCov_cons_unit_zero (S := S16x1) _ hz2, View.readCov_unit_zero (S := S16x1) _ hz2, View.readAt_eq_ld,
    harg2.read_unread, harg3.read_unread, harg5.read_unread, harg6.read_unread, harg7.read_unread,
    View.ld_unit_zero (S := S16x1) hz2]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, shapeCast_self]
  rfl

set_option maxHeartbeats 1000000 in
/-- The second accumulator after a first point: the same of the second block. -/
theorem firstAcc1 (c : Dev nD) (i : grid0.Coords) (arg2 : Memref sig .tc .vmem S16x131072 .f32) (harg2 : arg2.IsWhole) (arg3 : Memref sig .tc .vmem S16x131072 .f32) (harg3 : arg3.IsWhole) (arg4 : Memref sig .tc .vmem S16x128 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (hc0 : cond0_0 i) (hc1 : ¬cond0_1 i)
    (x0 : Vec F S16x131072 .f32) (x1 : Vec F S16x131072 .f32) :
    sout0_A_1 (F := F) c i arg2 harg2 arg3 harg3 arg4 harg4 arg5 harg5 arg6 harg6 arg7 harg7 hc0 hc1 x0 x1 = chain8 (slabs x1) zeroCol := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  simp only [View.canon_cons_unit_zero (S := S16x1) hz2, View.canon_cons_unit_zero (S := S16x128) hz2,
    readCov_cons_unit_zero (S := S16x1) _ hz2, View.readCov_unit_zero (S := S16x1) _ hz2, View.readAt_eq_ld,
    harg2.read_unread, harg3.read_unread, harg5.read_unread, harg6.read_unread, harg7.read_unread,
    View.ld_unit_zero (S := S16x1) hz2]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, shapeCast_self]
  rfl

set_option maxHeartbeats 1000000 in
/-- The third accumulator after a first point: the same of the entrywise product of the two blocks. -/
theorem firstAcc2 (c : Dev nD) (i : grid0.Coords) (arg2 : Memref sig .tc .vmem S16x131072 .f32) (harg2 : arg2.IsWhole) (arg3 : Memref sig .tc .vmem S16x131072 .f32) (harg3 : arg3.IsWhole) (arg4 : Memref sig .tc .vmem S16x128 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (hc0 : cond0_0 i) (hc1 : ¬cond0_1 i)
    (x0 : Vec F S16x131072 .f32) (x1 : Vec F S16x131072 .f32) :
    sout0_A_2 (F := F) c i arg2 harg2 arg3 harg3 arg4 harg4 arg5 harg5 arg6 harg6 arg7 harg7 hc0 hc1 x0 x1 = chain8 (fun k => mulf (slabs x0 k) (slabs x1 k)) zeroCol := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  simp only [View.canon_cons_unit_zero (S := S16x1) hz2, View.canon_cons_unit_zero (S := S16x128) hz2,
    readCov_cons_unit_zero (S := S16x1) _ hz2, View.readCov_unit_zero (S := S16x1) _ hz2, View.readAt_eq_ld,
    harg2.read_unread, harg3.read_unread, harg5.read_unread, harg6.read_unread, harg7.read_unread,
    View.ld_unit_zero (S := S16x1) hz2]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, shapeCast_self]
  rfl

/-! ## A last point: the accumulators go on from what the point before left, and the output block is written -/

set_option maxHeartbeats 1000000 in
theorem lastAcc0 (c : Dev nD) (i : grid0.Coords) (arg2 : Memref sig .tc .vmem S16x131072 .f32) (harg2 : arg2.IsWhole) (arg3 : Memref sig .tc .vmem S16x131072 .f32) (harg3 : arg3.IsWhole) (arg4 : Memref sig .tc .vmem S16x128 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (hc0 : ¬cond0_0 i) (hc1 : cond0_1 i)
    (x0 : Vec F S16x131072 .f32) (x1 : Vec F S16x131072 .f32) (xs0 xs1 xs2 : Vec F S16x1 .f32) :
    sout0_B_0 (F := F) c i arg2 harg2 arg3 harg3 arg4 harg4 arg5 harg5 arg6 harg6 arg7 harg7 hc0 hc1 x0 x1 xs0 xs1 xs2 = chain8 (slabs x0) xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  simp only [View.canon_cons_unit_zero (S := S16x1) hz2, View.canon_cons_unit_zero (S := S16x128) hz2,
    readCov_cons_unit_zero (S := S16x1) _ hz2, View.readCov_unit_zero (S := S16x1) _ hz2, View.readAt_eq_ld,
    harg2.read_unread, harg3.read_unread, harg5.read_unread, harg6.read_unread, harg7.read_unread,
    View.ld_unit_zero (S := S16x1) hz2]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, shapeCast_self]
  rfl

set_option maxHeartbeats 1000000 in
theorem lastAcc1 (c : Dev nD) (i : grid0.Coords) (arg2 : Memref sig .tc .vmem S16x131072 .f32) (harg2 : arg2.IsWhole) (arg3 : Memref sig .tc .vmem S16x131072 .f32) (harg3 : arg3.IsWhole) (arg4 : Memref sig .tc .vmem S16x128 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (hc0 : ¬cond0_0 i) (hc1 : cond0_1 i)
    (x0 : Vec F S16x131072 .f32) (x1 : Vec F S16x131072 .f32) (xs0 xs1 xs2 : Vec F S16x1 .f32) :
    sout0_B_1 (F := F) c i arg2 harg2 arg3 harg3 arg4 harg4 arg5 harg5 arg6 harg6 arg7 harg7 hc0 hc1 x0 x1 xs0 xs1 xs2 = chain8 (slabs x1) xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  simp only [View.canon_cons_unit_zero (S := S16x1) hz2, View.canon_cons_unit_zero (S := S16x128) hz2,
    readCov_cons_unit_zero (S := S16x1) _ hz2, View.readCov_unit_zero (S := S16x1) _ hz2, View.readAt_eq_ld,
    harg2.read_unread, harg3.read_unread, harg5.read_unread, harg6.read_unread, harg7.read_unread,
    View.ld_unit_zero (S := S16x1) hz2]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, shapeCast_self]
  rfl

set_option maxHeartbeats 1000000 in
theorem lastAcc2 (c : Dev nD) (i : grid0.Coords) (arg2 : Memref sig .tc .vmem S16x131072 .f32) (harg2 : arg2.IsWhole) (arg3 : Memref sig .tc .vmem S16x131072 .f32) (harg3 : arg3.IsWhole) (arg4 : Memref sig .tc .vmem S16x128 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (hc0 : ¬cond0_0 i) (hc1 : cond0_1 i)
    (x0 : Vec F S16x131072 .f32) (x1 : Vec F S16x131072 .f32) (xs0 xs1 xs2 : Vec F S16x1 .f32) :
    sout0_B_2 (F := F) c i arg2 harg2 arg3 harg3 arg4 harg4 arg5 harg5 arg6 harg6 arg7 harg7 hc0 hc1 x0 x1 xs0 xs1 xs2 = chain8 (fun k => mulf (slabs x0 k) (slabs x1 k)) xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  simp only [View.canon_cons_unit_zero (S := S16x1) hz2, View.canon_cons_unit_zero (S := S16x128) hz2,
    readCov_cons_unit_zero (S := S16x1) _ hz2, View.readCov_unit_zero (S := S16x1) _ hz2, View.readAt_eq_ld,
    harg2.read_unread, harg3.read_unread, harg5.read_unread, harg6.read_unread, harg7.read_unread,
    View.ld_unit_zero (S := S16x1) hz2]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, shapeCast_self]
  rfl

/-- The output block's value from the three finished accumulator columns: the loss of each row, repeated along
    the 128 lanes. -/
def lossBlock (P T I : Vec F S16x1 .f32) : FVec F S16x128 .f32 := k0_pay2 P T I

set_option maxHeartbeats 1000000 in
/-- The output block a last point stores: the loss of the three finished accumulators. -/
theorem lastOut (c : Dev nD) (i : grid0.Coords) (arg2 : Memref sig .tc .vmem S16x131072 .f32) (harg2 : arg2.IsWhole) (arg3 : Memref sig .tc .vmem S16x131072 .f32) (harg3 : arg3.IsWhole) (arg4 : Memref sig .tc .vmem S16x128 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (hc0 : ¬cond0_0 i) (hc1 : cond0_1 i)
    (x0 : Vec F S16x131072 .f32) (x1 : Vec F S16x131072 .f32) (xs0 xs1 xs2 : Vec F S16x1 .f32) :
    out0_B_2 (F := F) c i arg2 harg2 arg3 harg3 arg4 harg4 arg5 harg5 arg6 harg6 arg7 harg7 hc0 hc1 x0 x1 xs0 xs1 xs2
      = lossBlock (chain8 (slabs x0) xs0) (chain8 (slabs x1) xs1) (chain8 (fun k => mulf (slabs x0 k) (slabs x1 k)) xs2) := by
  unfold out0_B_2
  rw [View.read_writes_eq_canon _ _ _ (cover0_B_2 c i arg2 harg2 arg3 harg3 arg4 harg4 arg5 harg5 arg6 harg6 arg7 harg7 hc0 hc1 x0 x1 xs0 xs1 xs2)]
  unfold kernelRun0_B
  dsimp only
  sl_unfold_words
  simp only [View.canon_cons_unit_zero (S := S16x1) hz2, View.canon_cons_unit_zero (S := S16x128) hz2,
    readCov_cons_unit_zero (S := S16x1) _ hz2, View.readCov_unit_zero (S := S16x1) _ hz2, View.readAt_eq_ld,
    harg2.read_unread, harg3.read_unread, harg5.read_unread, harg6.read_unread, harg7.read_unread,
    View.ld_unit_zero (S := S16x1) hz2]
  unfold lossBlock
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, shapeCast_self]
  rfl

end Cert.Dice.Kern

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Spec.lean ====
/-
  The dice loss of a batch of 64 rows of 262144 entries each, as one function of the two row arrays.
  For a row with sums P = Σ p, T = Σ t, I = Σ p·t the loss is P · 2⁻¹⁸ where T = 0 and
  1 − (2·I + 1) / (P + T + 1) elsewhere; the result is the mean of the 64 row losses.  The float literals
  stay the words the programs spell (0, 1, 2 and 2⁻¹⁸); nothing here evaluates them.
-/
import Idealize.ShloMosaic.PureOps.Ideal.Laws
import Idealize.ShloMosaic.Lib.ValueIdx

noncomputable section

namespace Cert.Dice

open Idealize.ShloMosaic Idealize.ShloMosaic.ValueIdx

/-- The two arguments after the host's reshape: 64 rows of 262144 entries. -/
abbrev SRows : Shape := ⟨2, ![64, 262144]⟩
/-- One value per row. -/
abbrev SVec : Shape := ⟨1, ![64]⟩
/-- The scalar result. -/
abbrev SScal : Shape := ⟨0, ![]⟩

/-- The sum of row `r`. -/
def rowSum (x : FVec Ideal SRows .f32) (r : Fin 64) : EReal := ∑ j : Fin 262144, x (ix2 r j)

/-- The loss of one row from its three sums. -/
def lossOf (P T I : EReal) : EReal :=
  Scalar.select (Ideal.cmp .oeq T (Ideal.ofBits .f32 0x00000000#32))
    (P * Ideal.ofBits .f32 0x36800000#32)
    (Ideal.ofBits .f32 0x3F800000#32
      - Ideal.div (Ideal.ofBits .f32 0x40000000#32 * I + Ideal.ofBits .f32 0x3F800000#32)
          (P + T + Ideal.ofBits .f32 0x3F800000#32))

/-- The loss of row `r` of the pair of arrays. -/
def lossRow (p t : FVec Ideal SRows .f32) (r : Fin 64) : EReal :=
  lossOf (rowSum p r) (rowSum t r) (rowSum (fun j => p j * t j) r)

/-- The row losses as a vector. -/
def lossVec (p t : FVec Ideal SRows .f32) : FVec Ideal SVec .f32 := fun i => lossRow p t (i 0)

theorem lossVec_apply (p t : FVec Ideal SRows .f32) (r : Fin 64) : lossVec p t (ix1 r) = lossRow p t r := rfl

/-- The mean over the 64 rows as both programs take it: the host's sum from the zero word, divided by the word 64. -/
def meanOf (h1 : SVec.ReducesTo [0] SScal) (h2 : 0 < SScal.numel) (v : FVec Ideal SVec .f32) : FVec Ideal SScal .f32 :=
  Host.divf (F := Ideal) (Host.reduceAdd (F := Ideal) v (constant (F := Ideal) SScal .f32 0x00000000#32) h1 h2)
    (constant (F := Ideal) SScal .f32 0x42800000#32)

end Cert.Dice

end
-- ==== Proof.KernRead.lean ====
/-
  The body's pure functions read at a row, at the ideal values: an accumulation adds to a column's entry the
  sum of the slab's row; eight of them add the sums of the eight slabs, in order; a slab's entry is the block's
  entry 16384·k columns further right; and the output block's entry is the loss of the row's three accumulated sums.
-/
import proofs.«117182_j24386824307351_2_alg».proof.Proof.KernPieces
import proofs.«117182_j24386824307351_2_alg».proof.Proof.LibColumnLayout
import proofs.«117182_j24386824307351_2_alg».proof.Proof.Spec
import Idealize.ShloMosaic.PureOps.Ideal.Laws

noncomputable section

namespace Cert.Dice.Kern

open Idealize.ShloMosaic Idealize.ShloMosaic.TcCoe Idealize.ShloMosaic.ValueIdx Idealize.SL.Sem
open Cert.KernelIdeal Cert.KernelIdeal.Gen

/-- One accumulation at row `r`: the column's entry plus the sum of the slab's row. -/
theorem rowAcc_apply (V : FVec Ideal S16x16384 .f32) (acc : Vec Ideal S16x1 .f32) (r : Fin 16) :
    rowAcc (F := Ideal) V acc (ix2 r (0 : Fin 1)) = acc (ix2 r (0 : Fin 1)) + ∑ l : Fin 16384, V (ix2 r l) := by
  unfold rowAcc
  show acc (ix2 r (0 : Fin 1)) + shapeCast S16x1 _ shapeCasts_S16_S16x1 (ix2 r (0 : Fin 1)) = _
  refine congrArg (acc (ix2 r (0 : Fin 1)) + ·) ?_
  refine (PhysLoss.shapeCast_a_a1_apply _ shapeCasts_S16_S16x1 r 0).trans ?_
  refine (Ideal.multiReduction_add_single V 0x00000000#32 reduces_S16x16384_S16 _ _ (ix1 r)).trans ?_
  exact Finset.sum_congr rfl fun l _ => congrArg V (funext fun a => Fin.ext (by
    match a with
    | ⟨0, _⟩ => rfl
    | ⟨1, _⟩ => rfl))

/-- Eight accumulations at row `r`: the starting entry plus the eight slabs' row sums. -/
theorem chain8_apply (V : Fin 8 → FVec Ideal S16x16384 .f32) (init : Vec Ideal S16x1 .f32) (r : Fin 16) :
    chain8 (F := Ideal) V init (ix2 r (0 : Fin 1))
      = init (ix2 r (0 : Fin 1)) + ∑ k : Fin 8, ∑ l : Fin 16384, V k (ix2 r l) := by
  unfold chain8
  rw [rowAcc_apply, rowAcc_apply, rowAcc_apply, rowAcc_apply, rowAcc_apply, rowAcc_apply, rowAcc_apply, rowAcc_apply,
    Fin.sum_univ_eight]
  simp only [add_assoc]

theorem slab_col_lt (k : Fin 8) (l : Fin 16384) : 16384 * k.val + l.val < 131072 := by
  have := k.isLt; have := l.isLt; omega

/-- Slab `k` at (r, l) is the block at (r, 16384·k + l). -/
theorem slabs_apply (x : Vec Ideal S16x131072 .f32) (k : Fin 8) (r : Fin 16) (l : Fin 16384) :
    slabs (F := Ideal) x k (ix2 r l) = x (ix2 r (⟨16384 * k.val + l.val, slab_col_lt k l⟩ : Fin 131072)) := by
  unfold slabs
  show x _ = x _
  refine congrArg x (funext fun a => Fin.ext ?_)
  match a with
  | ⟨0, _⟩ => show 0 + 1 * r.val = r.val; omega
  | ⟨1, _⟩ => show 16384 * k.val + 1 * l.val = 16384 * k.val + l.val; omega

/-- The output block at (r, lane) is the loss of row `r`'s three accumulated sums. -/
theorem lossBlock_apply (P T I : Vec Ideal S16x1 .f32) (r : Fin 16) (l : Fin 128) :
    lossBlock (F := Ideal) P T I (ix2 r l)
      = Cert.Dice.lossOf (P (ix2 r (0 : Fin 1))) (T (ix2 r (0 : Fin 1))) (I (ix2 r (0 : Fin 1))) := by
  unfold lossBlock k0_pay2
  simp only [shapeCast_self]
  refine (PhysLoss.broadcastTo_a1_ab_apply _ broadcasts_S16x1_S16x128 r l).trans ?_
  rfl

end Cert.Dice.Kern

end
-- ==== Proof.KernHost.lean ====
/-
  The host operations around the kernel's one region: before it the two arguments are reshaped to 64 rows of
  262144 entries; after it column 0 of the [64, 128] result array is taken as a vector of 64 and averaged.
-/
import proofs.«117182_j24386824307351_2_alg».proof.Proof.Gen.KernelIdeal.Frame
import proofs.«117182_j24386824307351_2_alg».proof.Proof.Spec
import proofs.«117182_j24386824307351_2_alg».proof.Proof.LibColumnLayout
import Idealize.ShloMosaic.Lib.StableHlo.Run
import Idealize.ShloMosaic.Lib.ValueLayout
import Idealize.ShloMosaic.Lib.Pipeline.Value

noncomputable section

namespace Cert.Dice.Kern

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The region finds window 0's array at the reshape of the first argument. -/
theorem V_main_v0 (c : Dev nD) :
    (V m c main_v0 : S64x262144.Idx → EReal)
      = shapeCast S64x262144 (m ((c : Thread nD τ).loc main_arg0)) shapeCasts_S64x1x512x512_S64x262144 := by
  show StableHlo.after hostOps0 (fun b => m (c, b)) (Proc.devRef .tc main_v0) = _
  after_results
  rfl

/-- The region finds window 1's array at the reshape of the second argument. -/
theorem V_main_v1 (c : Dev nD) :
    (V m c main_v1 : S64x262144.Idx → EReal)
      = shapeCast S64x262144 (m ((c : Thread nD τ).loc main_arg1)) shapeCasts_S64x1x512x512_S64x262144 := by
  show StableHlo.after hostOps0 (fun b => m (c, b)) (Proc.devRef .tc main_v1) = _
  after_results
  rfl

/-- Column 0 of a [64, 128] array, cut out as a [64, 1] column and cast to a vector of 64, reads at `r` the
    array at `(r, 0)`. -/
theorem column0_apply (G : S64x128.Idx → EReal) (r : Fin 64) :
    shapeCast S64 (extractStridedSlice S64x1 ![0, 0] G slices_S64x128_S64x1_0_0) shapeCasts_S64x1_S64 (ix1 r)
      = G (ix2 r (0 : Fin 128)) := by
  refine (PhysLoss.shapeCast_a1_a_apply _ shapeCasts_S64x1_S64 r).trans ?_
  exact slice2_axis1_apply 0 G slices_S64x128_S64x1_0_0 r (0 : Fin 1) (0 : Fin 128) rfl

/-- The program's result: when column 0 of the region's final [64, 128] array is the vector `v`, the host
    operations after the region leave the mean of `v`. -/
theorem tail_eq (c : Dev nD) (v : FVec Ideal Cert.Dice.SVec .f32)
    (hfin : ∀ r : Fin 64, ((dats m 0 c).arrAt 2 cfg0.N : S64x128.Idx → EReal) (ix2 r (0 : Fin 128)) = v (ix1 r)) :
    (Pipeline.afterTail₀ cfgs (dats m) 0 (V0 m) [hostOps1] c main_v6 : S_.Idx → EReal)
      = Cert.Dice.meanOf reducesTo_S64_S_d0 h_S_ v := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v2) = (dats m 0 c).arrAt 2 cfg0.N :=
    Pipeline.withArrays_arr spec0 launch0.win.arr_inj c _ _ 2
  rw [hw]
  clear hw
  generalize ((dats m 0 c).arrAt 2 cfg0.N) = G at hfin ⊢
  unfold Cert.Dice.meanOf
  refine congrArg (fun x : FVec Ideal Cert.Dice.SVec .f32 =>
    Host.divf (F := Ideal) (Host.reduceAdd (F := Ideal) x (constant (F := Ideal) Cert.Dice.SScal .f32 0x00000000#32)
      reducesTo_S64_S_d0 h_S_) (constant (F := Ideal) Cert.Dice.SScal .f32 0x42800000#32)) ?_
  funext i
  obtain ⟨r, rfl⟩ : ∃ r : Fin 64, i = ix1 r := ⟨i 0, ValueIdx.eq_ix1 i⟩
  exact (column0_apply G r).trans (hfin r)

end Cert.Dice.Kern

end
-- ==== Proof.SumLaws.lean ====
/-
  A sum over the 262144 entries of a row, regrouped as the kernel takes it: two halves of 131072 entries, each
  in eight consecutive runs of 16384.  Addition in a commutative monoid is all that is used, so the law holds
  on the extended reals with no finiteness assumption.
-/
import Mathlib.Algebra.BigOperators.Fin
import Mathlib.Logic.Equiv.Fin.Basic

namespace Cert.Dice

variable {M : Type*} [AddCommMonoid M]

/-- A sum over `n · b` consecutive positions is the sum over `n` runs of `b` positions each. -/
theorem sum_runs (n b : ℕ) (f : Fin (n * b) → M) :
    ∑ j, f j = ∑ k : Fin n, ∑ l : Fin b, f (finProdFinEquiv (k, l)) := by
  rw [← Fintype.sum_prod_type' (f := fun k l => f (finProdFinEquiv (k, l)))]
  exact (Equiv.sum_comp finProdFinEquiv f).symm

theorem run_lt (k : Fin 8) (l : Fin 16384) : 16384 * k.val + l.val < 262144 := by
  have := k.isLt; have := l.isLt; omega

theorem run_lt' (k : Fin 8) (l : Fin 16384) : 131072 + (16384 * k.val + l.val) < 262144 := by
  have := k.isLt; have := l.isLt; omega

/-- A row's sum is the sum of its first half's eight runs plus the sum of its second half's eight runs. -/
theorem sum_row_split (f : Fin 262144 → M) :
    ∑ j, f j = (∑ k : Fin 8, ∑ l : Fin 16384, f ⟨16384 * k.val + l.val, run_lt k l⟩)
      + (∑ k : Fin 8, ∑ l : Fin 16384, f ⟨131072 + (16384 * k.val + l.val), run_lt' k l⟩) := by
  have h := sum_runs 16 16384 (fun j : Fin (16 * 16384) => f ⟨j.val, j.isLt⟩)
  have h2 := Fin.sum_univ_add (a := 8) (b := 8)
    (fun q : Fin (8 + 8) => ∑ l : Fin 16384, f ⟨(finProdFinEquiv (q, l) : Fin (16 * 16384)).val, (finProdFinEquiv (q, l)).isLt⟩)
  refine (show ∑ j, f j = ∑ j : Fin (16 * 16384), f ⟨j.val, j.isLt⟩ from rfl).trans (h.trans (h2.trans ?_))
  refine congrArg₂ (· + ·) ?_ ?_
  · refine Finset.sum_congr rfl fun k _ => Finset.sum_congr rfl fun l _ => congrArg f (Fin.ext ?_)
    show l.val + 16384 * k.val = 16384 * k.val + l.val
    omega
  · refine Finset.sum_congr rfl fun k _ => Finset.sum_congr rfl fun l _ => congrArg f (Fin.ext ?_)
    show l.val + 16384 * (8 + k.val) = 131072 + (16384 * k.val + l.val)
    omega

end Cert.Dice
-- ==== Proof.KernValue.lean ====
/-
  The kernel's result array.  Grid point t = 2·i + n handles rows 16·i … 16·i + 15 and the half n of their
  columns.  At n = 0 the three accumulators are left at the zero word plus the first half's sums of the rows of
  p, of t and of p·t; at n = 1 they go on to the whole rows' sums, and the output block — rows 16·i … 16·i + 15 of
  the [64, 128] result array — is the rows' losses along every lane.  The blocks written back at the four points
  with n = 1 tile the array, so it ends holding each row's loss on all of its 128 lanes.
-/
import proofs.«117182_j24386824307351_2_alg».proof.Proof.KernRead
import proofs.«117182_j24386824307351_2_alg».proof.Proof.KernHost
import proofs.«117182_j24386824307351_2_alg».proof.Proof.SumLaws
import Idealize.ShloMosaic.Lib.Pipeline.Value

noncomputable section

namespace Cert.Dice.Kern

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The printed index maps over the grid: point t reads block (t / 2, t % 2) of both inputs and writes block (t / 2, 0). -/
theorem idx_facts : ∀ t : Fin cfg0.N,
    win0_0.index t (0 : Fin 2) = t.val / 2 ∧ win0_0.index t (1 : Fin 2) = t.val % 2
    ∧ win0_1.index t (0 : Fin 2) = t.val / 2 ∧ win0_1.index t (1 : Fin 2) = t.val % 2
    ∧ win0_2.index t (0 : Fin 2) = t.val / 2 ∧ win0_2.index t (1 : Fin 2) = 0 :=
  (by decide +kernel : ∀ t : Fin grid0.N,
    win0_0.index t (0 : Fin 2) = t.val / 2 ∧ win0_0.index t (1 : Fin 2) = t.val % 2
    ∧ win0_1.index t (0 : Fin 2) = t.val / 2 ∧ win0_1.index t (1 : Fin 2) = t.val % 2
    ∧ win0_2.index t (0 : Fin 2) = t.val / 2 ∧ win0_2.index t (1 : Fin 2) = 0)

theorem row_lt (t : Fin cfg0.N) (r : Fin 16) : 16 * (t.val / 2) + r.val < 64 := by
  have hN : t.val < 8 := lt_of_lt_of_eq t.isLt (show cfg0.N = 8 from N_0)
  have := r.isLt; omega

theorem col_lt (t : Fin cfg0.N) (j : Fin 131072) : 131072 * (t.val % 2) + j.val < 262144 := by
  have := j.isLt; omega

/-- The global row of row r of point t's blocks. -/
abbrev rowOf (t : Fin cfg0.N) (r : Fin 16) : Fin 64 := ⟨16 * (t.val / 2) + r.val, row_lt t r⟩

/-- Point t's block of the first array, at (r, j): the array at (16·(t/2) + r, 131072·(t%2) + j). -/
theorem blk0_apply (c : Dev nD) (t : Fin cfg0.N) (r : Fin 16) (j : Fin 131072) :
    (iblk m c 0 t : Vec Ideal S16x131072 .f32) (ix2 r j)
      = (V m c main_v0 : S64x262144.Idx → EReal) (ix2 (rowOf t r) (⟨131072 * (t.val % 2) + j.val, col_lt t j⟩ : Fin 262144)) := by
  obtain ⟨e0, e1, -, -, -, -⟩ := idx_facts t
  have h : ((cfg0.win 0).blk t).view.emb (ix2 r j)
      = ix2 (rowOf t r) (⟨131072 * (t.val % 2) + j.val, col_lt t j⟩ : Fin 262144) := by
    funext a; apply Fin.ext
    match a with
    | ⟨0, _⟩ => show win0_0.index t (0 : Fin 2) * 16 + 1 * r.val = 16 * (t.val / 2) + r.val; rw [e0]; omega
    | ⟨1, _⟩ => show win0_0.index t (1 : Fin 2) * 131072 + 1 * j.val = 131072 * (t.val % 2) + j.val; rw [e1]; omega
  unfold iblk
  rw [View.read_apply]
  show V m c main_v0 (((cfg0.win 0).blk t).view.emb (ix2 r j)) = _
  rw [h]

/-- Point t's block of the second array, likewise. -/
theorem blk1_apply (c : Dev nD) (t : Fin cfg0.N) (r : Fin 16) (j : Fin 131072) :
    (iblk m c 1 t : Vec Ideal S16x131072 .f32) (ix2 r j)
      = (V m c main_v1 : S64x262144.Idx → EReal) (ix2 (rowOf t r) (⟨131072 * (t.val % 2) + j.val, col_lt t j⟩ : Fin 262144)) := by
  obtain ⟨-, -, e0, e1, -, -⟩ := idx_facts t
  have h : ((cfg0.win 1).blk t).view.emb (ix2 r j)
      = ix2 (rowOf t r) (⟨131072 * (t.val % 2) + j.val, col_lt t j⟩ : Fin 262144) := by
    funext a; apply Fin.ext
    match a with
    | ⟨0, _⟩ => show win0_1.index t (0 : Fin 2) * 16 + 1 * r.val = 16 * (t.val / 2) + r.val; rw [e0]; omega
    | ⟨1, _⟩ => show win0_1.index t (1 : Fin 2) * 131072 + 1 * j.val = 131072 * (t.val % 2) + j.val; rw [e1]; omega
  unfold iblk
  rw [View.read_apply]
  show V m c main_v1 (((cfg0.win 1).blk t).view.emb (ix2 r j)) = _
  rw [h]

/-! ## The runs of a row, half by half -/

/-- The first 131072 entries of row R, in eight runs of 16384. -/
def firstHalf (x : S64x262144.Idx → EReal) (R : Fin 64) : EReal :=
  ∑ k : Fin 8, ∑ l : Fin 16384, x (ix2 R (⟨16384 * k.val + l.val, Cert.Dice.run_lt k l⟩ : Fin 262144))

/-- The last 131072 entries of row R, in eight runs of 16384. -/
def secondHalf (x : S64x262144.Idx → EReal) (R : Fin 64) : EReal :=
  ∑ k : Fin 8, ∑ l : Fin 16384, x (ix2 R (⟨131072 + (16384 * k.val + l.val), Cert.Dice.run_lt' k l⟩ : Fin 262144))

/-- A row's sum is its two halves' sums. -/
theorem rowSum_halves (x : S64x262144.Idx → EReal) (R : Fin 64) :
    Cert.Dice.rowSum x R = firstHalf x R + secondHalf x R :=
  Cert.Dice.sum_row_split (fun j => x (ix2 R j))

/-- The slab sums of point t's blocks, as runs of the arrays' rows: entry (r, l) of slab k of the block of array w
    is the array at row 16·(t/2) + r, column 131072·(t%2) + 16384·k + l. -/
theorem slab0_entry (c : Dev nD) (t : Fin cfg0.N) (k : Fin 8) (r : Fin 16) (l : Fin 16384) :
    slabs (F := Ideal) (iblk m c 0 t) k (ix2 r l)
      = (V m c main_v0 : S64x262144.Idx → EReal) (ix2 (rowOf t r)
          (⟨131072 * (t.val % 2) + (16384 * k.val + l.val), col_lt t ⟨16384 * k.val + l.val, slab_col_lt k l⟩⟩ : Fin 262144)) :=
  (slabs_apply (iblk m c 0 t) k r l).trans (blk0_apply m c t r ⟨16384 * k.val + l.val, slab_col_lt k l⟩)

theorem slab1_entry (c : Dev nD) (t : Fin cfg0.N) (k : Fin 8) (r : Fin 16) (l : Fin 16384) :
    slabs (F := Ideal) (iblk m c 1 t) k (ix2 r l)
      = (V m c main_v1 : S64x262144.Idx → EReal) (ix2 (rowOf t r)
          (⟨131072 * (t.val % 2) + (16384 * k.val + l.val), col_lt t ⟨16384 * k.val + l.val, slab_col_lt k l⟩⟩ : Fin 262144)) :=
  (slabs_apply (iblk m c 1 t) k r l).trans (blk1_apply m c t r ⟨16384 * k.val + l.val, slab_col_lt k l⟩)

/-- The column index of a first-half point's run entry. -/
theorem col_even (t : Fin cfg0.N) (he : t.val % 2 = 0) (k : Fin 8) (l : Fin 16384) :
    (⟨131072 * (t.val % 2) + (16384 * k.val + l.val), col_lt t ⟨16384 * k.val + l.val, slab_col_lt k l⟩⟩ : Fin 262144)
      = ⟨16384 * k.val + l.val, Cert.Dice.run_lt k l⟩ := Fin.ext (by
  show 131072 * (t.val % 2) + (16384 * k.val + l.val) = 16384 * k.val + l.val
  omega)

/-- The column index of a second-half point's run entry. -/
theorem col_odd (t : Fin cfg0.N) (ho : t.val % 2 = 1) (k : Fin 8) (l : Fin 16384) :
    (⟨131072 * (t.val % 2) + (16384 * k.val + l.val), col_lt t ⟨16384 * k.val + l.val, slab_col_lt k l⟩⟩ : Fin 262144)
      = ⟨131072 + (16384 * k.val + l.val), Cert.Dice.run_lt' k l⟩ := Fin.ext (by
  show 131072 * (t.val % 2) + (16384 * k.val + l.val) = 131072 + (16384 * k.val + l.val)
  omega)

/-- The two arrays' entrywise product. -/
abbrev mulRows (x y : S64x262144.Idx → EReal) : S64x262144.Idx → EReal := fun j => x j * y j
abbrev prodRows (c : Dev nD) : S64x262144.Idx → EReal := mulRows (V m c main_v0) (V m c main_v1)

theorem sums_even (c : Dev nD) (t : Fin cfg0.N) (he : t.val % 2 = 0) (r : Fin 16) :
    (∑ k : Fin 8, ∑ l : Fin 16384, slabs (F := Ideal) (iblk m c 0 t) k (ix2 r l)) = firstHalf (V m c main_v0) (rowOf t r)
    ∧ (∑ k : Fin 8, ∑ l : Fin 16384, slabs (F := Ideal) (iblk m c 1 t) k (ix2 r l)) = firstHalf (V m c main_v1) (rowOf t r)
    ∧ (∑ k : Fin 8, ∑ l : Fin 16384, (mulf (F := Ideal) (slabs (F := Ideal) (iblk m c 0 t) k) (slabs (F := Ideal) (iblk m c 1 t) k) : FVec Ideal S16x16384 .f32) (ix2 r l))
        = firstHalf (prodRows m c) (rowOf t r) := by
  refine ⟨?_, ?_, ?_⟩
  · exact Finset.sum_congr rfl fun k _ => Finset.sum_congr rfl fun l _ => by
      rw [slab0_entry m c t k r l, col_even t he k l]
  · exact Finset.sum_congr rfl fun k _ => Finset.sum_congr rfl fun l _ => by
      rw [slab1_entry m c t k r l, col_even t he k l]
  · exact Finset.sum_congr rfl fun k _ => Finset.sum_congr rfl fun l _ => by
      show slabs (F := Ideal) (iblk m c 0 t) k (ix2 r l) * slabs (F := Ideal) (iblk m c 1 t) k (ix2 r l) = _
      rw [slab0_entry m c t k r l, slab1_entry m c t k r l, col_even t he k l]

theorem sums_odd (c : Dev nD) (t : Fin cfg0.N) (ho : t.val % 2 = 1) (r : Fin 16) :
    (∑ k : Fin 8, ∑ l : Fin 16384, slabs (F := Ideal) (iblk m c 0 t) k (ix2 r l)) = secondHalf (V m c main_v0) (rowOf t r)
    ∧ (∑ k : Fin 8, ∑ l : Fin 16384, slabs (F := Ideal) (iblk m c 1 t) k (ix2 r l)) = secondHalf (V m c main_v1) (rowOf t r)
    ∧ (∑ k : Fin 8, ∑ l : Fin 16384, (mulf (F := Ideal) (slabs (F := Ideal) (iblk m c 0 t) k) (slabs (F := Ideal) (iblk m c 1 t) k) : FVec Ideal S16x16384 .f32) (ix2 r l))
        = secondHalf (prodRows m c) (rowOf t r) := by
  refine ⟨?_, ?_, ?_⟩
  · exact Finset.sum_congr rfl fun k _ => Finset.sum_congr rfl fun l _ => by
      rw [slab0_entry m c t k r l, col_odd t ho k l]
  · exact Finset.sum_congr rfl fun k _ => Finset.sum_congr rfl fun l _ => by
      rw [slab1_entry m c t k r l, col_odd t ho k l]
  · exact Finset.sum_congr rfl fun k _ => Finset.sum_congr rfl fun l _ => by
      show slabs (F := Ideal) (iblk m c 0 t) k (ix2 r l) * slabs (F := Ideal) (iblk m c 1 t) k (ix2 r l) = _
      rw [slab0_entry m c t k r l, slab1_entry m c t k r l, col_odd t ho k l]

/-! ## What each point leaves -/

/-- After a first-half point the three accumulators hold, at row r, the zero word plus the first halves' sums
    of the row of p, of t and of p·t. -/
theorem accs_even (c : Dev nD) (n : ℕ) (hn : n < cfg0.N) (he : n % 2 = 0) (r : Fin 16) :
    (outsAt0 m c n hn).2.1 (ix2 r (0 : Fin 1))
        = Ideal.ofBits .f32 0x00000000#32 + firstHalf (V m c main_v0) (rowOf ⟨n, hn⟩ r)
    ∧ (outsAt0 m c n hn).2.2.1 (ix2 r (0 : Fin 1))
        = Ideal.ofBits .f32 0x00000000#32 + firstHalf (V m c main_v1) (rowOf ⟨n, hn⟩ r)
    ∧ (outsAt0 m c n hn).2.2.2 (ix2 r (0 : Fin 1))
        = Ideal.ofBits .f32 0x00000000#32 + firstHalf (prodRows m c) (rowOf ⟨n, hn⟩ r) := by
  have h1 : ¬ (⟨n, hn⟩ : Fin cfg0.N).val % 2 = 1 := by dsimp only; omega
  have hA : outsAt0 m c n hn = _ := outsAt0_A m c ⟨n, hn⟩ he h1
  obtain ⟨s0, s1, s2⟩ := sums_even m c ⟨n, hn⟩ he r
  rw [hA]
  refine ⟨?_, ?_, ?_⟩
  · exact ((congrFun (firstAcc0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) ((hcond0_0 ⟨n, hn⟩).mpr he) (fun h => h1 ((hcond0_1 ⟨n, hn⟩).mp h)) (iblk m c 0 ⟨n, hn⟩) (iblk m c 1 ⟨n, hn⟩)) (ix2 r (0 : Fin 1))).trans
      (chain8_apply (slabs (F := Ideal) (iblk m c 0 ⟨n, hn⟩)) zeroCol r)).trans
      (congrArg (Ideal.ofBits .f32 0x00000000#32 + ·) s0)
  · exact ((congrFun (firstAcc1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) ((hcond0_0 ⟨n, hn⟩).mpr he) (fun h => h1 ((hcond0_1 ⟨n, hn⟩).mp h)) (iblk m c 0 ⟨n, hn⟩) (iblk m c 1 ⟨n, hn⟩)) (ix2 r (0 : Fin 1))).trans
      (chain8_apply (slabs (F := Ideal) (iblk m c 1 ⟨n, hn⟩)) zeroCol r)).trans
      (congrArg (Ideal.ofBits .f32 0x00000000#32 + ·) s1)
  · exact ((congrFun (firstAcc2 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) ((hcond0_0 ⟨n, hn⟩).mpr he) (fun h => h1 ((hcond0_1 ⟨n, hn⟩).mp h)) (iblk m c 0 ⟨n, hn⟩) (iblk m c 1 ⟨n, hn⟩)) (ix2 r (0 : Fin 1))).trans
      (chain8_apply (fun k => mulf (slabs (F := Ideal) (iblk m c 0 ⟨n, hn⟩) k) (slabs (F := Ideal) (iblk m c 1 ⟨n, hn⟩) k)) zeroCol r)).trans
      (congrArg (Ideal.ofBits .f32 0x00000000#32 + ·) s2)

/-- The output block a second-half point stores holds, at (r, any lane), the loss of row 16·(t/2) + r. -/
theorem out_odd (c : Dev nD) (t : Fin cfg0.N) (ho : t.val % 2 = 1) (r : Fin 16) (l : Fin 128) :
    (outsAt0 m c t.val t.isLt).1 (ix2 r l) = Cert.Dice.lossRow (V m c main_v0) (V m c main_v1) (rowOf t r) := by
  have hN : t.val < 8 := lt_of_lt_of_eq t.isLt (show cfg0.N = 8 from N_0)
  have h0 : ¬ t.val % 2 = 0 := by omega
  have hp : t.val - 1 < cfg0.N := Nat.lt_of_le_of_lt (Nat.sub_le _ _) t.isLt
  have hB : outsAt0 m c t.val t.isLt = _ := outsAt0_B m c t h0 ho
  obtain ⟨a0, a1, a2⟩ := accs_even m c (t.val - 1) hp (by omega) r
  obtain ⟨s0, s1, s2⟩ := sums_odd m c t ho r
  have hrow : rowOf ⟨t.val - 1, hp⟩ r = rowOf t r := Fin.ext (by
    show 16 * ((t.val - 1) / 2) + r.val = 16 * (t.val / 2) + r.val
    omega)
  rw [hrow] at a0 a1 a2
  have e0 : chain8 (F := Ideal) (slabs (F := Ideal) (iblk m c 0 t)) (outsAt0 m c (t.val - 1) hp).2.1 (ix2 r (0 : Fin 1))
      = Cert.Dice.rowSum (V m c main_v0) (rowOf t r) := by
    refine (chain8_apply (slabs (F := Ideal) (iblk m c 0 t)) (outsAt0 m c (t.val - 1) hp).2.1 r).trans ?_
    rw [a0, s0, rowSum_halves, Ideal.ofBits_zero_f32, zero_add]
  have e1 : chain8 (F := Ideal) (slabs (F := Ideal) (iblk m c 1 t)) (outsAt0 m c (t.val - 1) hp).2.2.1 (ix2 r (0 : Fin 1))
      = Cert.Dice.rowSum (V m c main_v1) (rowOf t r) := by
    refine (chain8_apply (slabs (F := Ideal) (iblk m c 1 t)) (outsAt0 m c (t.val - 1) hp).2.2.1 r).trans ?_
    rw [a1, s1, rowSum_halves, Ideal.ofBits_zero_f32, zero_add]
  have e2 : chain8 (F := Ideal) (fun k => mulf (slabs (F := Ideal) (iblk m c 0 t) k) (slabs (F := Ideal) (iblk m c 1 t) k)) (outsAt0 m c (t.val - 1) hp).2.2.2 (ix2 r (0 : Fin 1))
      = Cert.Dice.rowSum (prodRows m c) (rowOf t r) := by
    refine (chain8_apply (fun k => mulf (slabs (F := Ideal) (iblk m c 0 t) k) (slabs (F := Ideal) (iblk m c 1 t) k)) (outsAt0 m c (t.val - 1) hp).2.2.2 r).trans ?_
    refine (congrArg₂ (· + ·) a2 s2).trans ?_
    rw [rowSum_halves, Ideal.ofBits_zero_f32, zero_add]
  rw [hB]
  refine ((congrFun (lastOut (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr ho) (iblk m c 0 t) (iblk m c 1 t) (outsAt0 m c (t.val - 1) hp).2.1 (outsAt0 m c (t.val - 1) hp).2.2.1 (outsAt0 m c (t.val - 1) hp).2.2.2) (ix2 r l)).trans
    (lossBlock_apply _ _ _ r l)).trans ?_
  show Cert.Dice.lossOf _ _ _ = Cert.Dice.lossOf _ _ _
  rw [e0, e1, e2]

/-! ## The result array -/

/-- The result array: the loss of row R on each of its 128 lanes. -/
def lossArray (c : Dev nD) : S64x128.Idx → EReal :=
  fun i => Cert.Dice.lossRow (V m c main_v0) (V m c main_v1) ⟨(i 0).val, idx2_lt0 i⟩

theorem lossArray_apply (c : Dev nD) (R : Fin 64) (l : Fin 128) :
    lossArray m c (ix2 R l) = Cert.Dice.lossRow (V m c main_v0) (V m c main_v1) R := rfl

/-- What a writing point t writes back is block t of the loss array. -/
theorem flushed_eq (c : Dev nD) (t : Fin cfg0.N) (hf : (cfg0.win 2).flush t = true) :
    (dats m 0 c).flushed 2 t = ((cfg0.win 2).blk t).view.read (Elt Ideal) (lossArray m c) := by
  have ho : t.val % 2 = 1 := (flush0_2 t).mp hf
  obtain ⟨-, -, -, -, e0, e1⟩ := idx_facts t
  show (cfg0.win 2).cut (grid0.coords t) ((dats m 0 c).after 2 t) = _
  rw [after0_2]
  refine funext fun (j : S16x128.Idx) => ?_
  obtain ⟨r, l, rfl⟩ : ∃ (r : Fin 16) (l : Fin 128), j = ix2 r l := ⟨j 0, j 1, eq_ix2 j⟩
  have hemb : ((cfg0.win 2).blk t).view.emb (ix2 r l) = ix2 (rowOf t r) l := by
    funext a; apply Fin.ext
    match a with
    | ⟨0, _⟩ => show win0_2.index t (0 : Fin 2) * 16 + 1 * r.val = 16 * (t.val / 2) + r.val; rw [e0]; omega
    | ⟨1, _⟩ => show win0_2.index t (1 : Fin 2) * 128 + 1 * l.val = l.val; rw [e1]; omega
  refine Eq.trans (b := (outsAt0 m c t.val t.isLt).1 (ix2 r l)) rfl ?_
  rw [out_odd m c t ho r l, ← lossArray_apply m c (rowOf t r) l, ← hemb]
  generalize lossArray m c = Gf
  rw [View.read_apply]
  rfl

/-- An index of the array is in point t's block iff each coordinate is in the block's range on its axis. -/
theorem mem_blk (t : Fin cfg0.N) (i : S64x128.Idx) :
    i ∈ ((cfg0.win 2).blk t).view.set ↔ ∀ a : Fin 2, win0_2.index t a * S16x128.size a ≤ (i a).val
      ∧ (i a).val < win0_2.index t a * S16x128.size a + S16x128.size a := by
  show i ∈ ((View.whole main_v2).slice (win0_2.rect t)).set ↔ _
  rw [View.set_slice_whole, Rect.mem_set_unit]
  exact Iff.rfl

/-- Every index of the array is in the block of a writing point: row R's is point 2·(R / 16) + 1. -/
theorem cover (i : S64x128.Idx) :
    ∃ t : Fin cfg0.N, (cfg0.win 2).flush t = true ∧ i ∈ ((cfg0.win 2).blk t).view.set := by
  have hi0 : (i 0).val < 64 := (i 0).isLt
  have hi1 : (i 1).val < 128 := (i 1).isLt
  have hN : cfg0.N = 8 := N_0
  obtain ⟨t, ht⟩ : ∃ t : Fin cfg0.N, t.val = 2 * ((i 0).val / 16) + 1 := ⟨⟨2 * ((i 0).val / 16) + 1, by rw [hN]; omega⟩, rfl⟩
  obtain ⟨-, -, -, -, e0, e1⟩ := idx_facts t
  refine ⟨t, (flush0_2 t).mpr (by omega), ?_⟩
  rw [mem_blk]
  intro a
  match a with
  | ⟨0, _⟩ =>
    show win0_2.index t (0 : Fin 2) * 16 ≤ (i 0).val ∧ (i 0).val < win0_2.index t (0 : Fin 2) * 16 + 16
    rw [e0]; omega
  | ⟨1, _⟩ =>
    show win0_2.index t (1 : Fin 2) * 128 ≤ (i 1).val ∧ (i 1).val < win0_2.index t (1 : Fin 2) * 128 + 128
    rw [e1]; omega

/-- So the result array ends holding the loss array. -/
theorem final (c : Dev nD) : (dats m 0 c).arrAt 2 cfg0.N = lossArray m c :=
  (dats m 0 c).arrAt_eq_of_cover 2 (lossArray m c) (flushed_eq m c) cover

/-! ## The program's result -/

/-- The program's result: the mean of the 64 row losses of the two reshaped arguments. -/
theorem result_eq (c : Dev nD) :
    (Pipeline.afterTail₀ cfgs (dats m) 0 (V0 m) [hostOps1] c main_v6 : S_.Idx → EReal)
      = Cert.Dice.meanOf reducesTo_S64_S_d0 h_S_ (Cert.Dice.lossVec
          (shapeCast S64x262144 (m ((c : Thread nD τ).loc main_arg0)) shapeCasts_S64x1x512x512_S64x262144)
          (shapeCast S64x262144 (m ((c : Thread nD τ).loc main_arg1)) shapeCasts_S64x1x512x512_S64x262144)) := by
  rw [← V_main_v0 m c, ← V_main_v1 m c]
  exact tail_eq m c _ fun r => (congrFun (final m c) (ix2 r (0 : Fin 128))).trans rfl

/-- The kernel program's run, read: the result at the mean of the row losses, the arguments unchanged. -/
theorem run : θ_run defs (onTc (τ := τ) (main (F := Ideal))) ⟨m, fun _ => 0, ρ⟩ fun r => ∀ c : Dev nD,
      (r.2.mem ((c : Thread nD τ).loc main_v6) : S_.Idx → EReal)
        = Cert.Dice.meanOf reducesTo_S64_S_d0 h_S_ (Cert.Dice.lossVec
            (shapeCast S64x262144 (m ((c : Thread nD τ).loc main_arg0)) shapeCasts_S64x1x512x512_S64x262144)
            (shapeCast S64x262144 (m ((c : Thread nD τ).loc main_arg1)) shapeCasts_S64x1x512x512_S64x262144))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Dice.Kern

end
-- ==== Proof.RefSide.lean ====
/-
  The reference's result as the mean of the row losses.
-/
import proofs.«117182_j24386824307351_2_alg».proof.Proof.Gen.ReferenceIdeal.Read
import proofs.«117182_j24386824307351_2_alg».proof.Proof.Spec

noncomputable section

namespace Cert.Dice.Ref

open Idealize.ShloMosaic Idealize.ShloMosaic.ValueIdx
open Cert.ReferenceIdeal Cert.ReferenceIdeal.Gen Cert.ReferenceIdeal.Read

/-- The word `0x48800000` denotes the real `262144 = 2¹⁸`. -/
theorem ofBits_two18 : Ideal.ofBits .f32 0x48800000#32 = ((262144 : ℝ) : EReal) := by
  simp [Ideal.ofBits, Ideal.ieee, -EReal.coe_mul]; norm_num

/-- The word `0x36800000` denotes the real `1 / 262144 = 2⁻¹⁸`. -/
theorem ofBits_inv_two18 : Ideal.ofBits .f32 0x36800000#32 = ((1 / 262144 : ℝ) : EReal) := by
  simp [Ideal.ofBits, Ideal.ieee, -EReal.coe_mul]; norm_num

/-- Dividing by `2¹⁸` is multiplying by `2⁻¹⁸`, for every extended real. -/
theorem div_two18 (x : EReal) :
    Ideal.div x (Ideal.ofBits .f32 0x48800000#32) = x * Ideal.ofBits .f32 0x36800000#32 := by
  rw [ofBits_two18, ofBits_inv_two18]
  exact Ideal.div_coe (by norm_num) x

/-- The index the row sums read at row `r`, column `k`. -/
theorem idx_v2_ix1 (r : Fin 64) (k : Fin 262144) : idx_main_v2 (ix1 r) k = ix2 r k := by
  funext a; match a with | ⟨0, _⟩ => rfl | ⟨1, _⟩ => rfl

/-- The reference's sum of the second argument's row `r`. -/
theorem v2_row (x1 : (⟨S64x1x512x512, .f32⟩ : BufTy).Contents (Elt Ideal)) (r : Fin 64) :
    val_main_v2 (F := Ideal) x1 (ix1 r) = Cert.Dice.rowSum (val_main_v1 (F := Ideal) x1) r := by
  rw [val_main_v2_apply, val_main_cst_apply, Ideal.ofBits_def, Ideal.ofBits_zero_f32, zero_add]
  exact Finset.sum_congr rfl fun k _ => congrArg _ (idx_v2_ix1 r k)

/-- The reference's sum of the first argument's row `r`. -/
theorem v3_row (x0 : (⟨S64x1x512x512, .f32⟩ : BufTy).Contents (Elt Ideal)) (r : Fin 64) :
    val_main_v3 (F := Ideal) x0 (ix1 r) = Cert.Dice.rowSum (val_main_v0 (F := Ideal) x0) r := by
  rw [val_main_v3_apply, val_main_cst_0_apply, Ideal.ofBits_def, Ideal.ofBits_zero_f32, zero_add]
  exact Finset.sum_congr rfl fun k _ => congrArg _ (idx_v2_ix1 r k)

/-- The reference's sum of the products along row `r`. -/
theorem v5_row (x0 x1 : (⟨S64x1x512x512, .f32⟩ : BufTy).Contents (Elt Ideal)) (r : Fin 64) :
    val_main_v5 (F := Ideal) x0 x1 (ix1 r)
      = Cert.Dice.rowSum (fun j => val_main_v0 (F := Ideal) x0 j * val_main_v1 (F := Ideal) x1 j) r := by
  rw [val_main_v5_apply, val_main_cst_1_apply, Ideal.ofBits_def, Ideal.ofBits_zero_f32, zero_add]
  refine Finset.sum_congr rfl fun k _ => ?_
  rw [val_main_v4_apply, Ideal.mulf_def]
  exact congrArg (fun j => val_main_v0 (F := Ideal) x0 j * val_main_v1 (F := Ideal) x1 j) (idx_v2_ix1 r k)

/-- The reference's selected value at row `r` is the loss of that row. -/
theorem v20_row (x0 x1 : (⟨S64x1x512x512, .f32⟩ : BufTy).Contents (Elt Ideal)) (r : Fin 64) :
    val_main_v20 (F := Ideal) x0 x1 (ix1 r)
      = Cert.Dice.lossRow (val_main_v0 (F := Ideal) x0) (val_main_v1 (F := Ideal) x1) r := by
  rw [val_main_v20_apply, val_main_v19_apply, val_main_v17_apply, val_main_v15_apply, val_main_v13_apply,
    val_main_v12_apply, val_main_v10_apply, val_main_v9_apply, val_main_v7_apply,
    val_main_v6_apply, val_main_v8_apply, val_main_v11_apply, val_main_v14_apply, val_main_v16_apply,
    val_main_v18_apply,
    val_main_cst_2_apply, val_main_cst_3_apply, val_main_cst_4_apply, val_main_cst_5_apply,
    val_main_cst_6_apply, val_main_cst_7_apply,
    v2_row, v3_row, v5_row]
  simp only [Ideal.ofBits_def, Ideal.addf_def, Ideal.subf_def, Ideal.mulf_def, Ideal.hostDivf_def,
    Ideal.cmpf_def]
  rw [div_two18]
  rfl

/-- The reference's last stage is the mean of the row losses of its two reshaped arguments. -/
theorem result_eq (x0 x1 : (⟨S64x1x512x512, .f32⟩ : BufTy).Contents (Elt Ideal)) :
    val_main_v22 (F := Ideal) x0 x1
      = Cert.Dice.meanOf Cert.ReferenceIdeal.Gen.reducesTo_S64_S_d0 Cert.ReferenceIdeal.Gen.h_S_
          (Cert.Dice.lossVec (val_main_v0 (F := Ideal) x0) (val_main_v1 (F := Ideal) x1)) := by
  have hv : val_main_v20 (F := Ideal) x0 x1
      = Cert.Dice.lossVec (val_main_v0 (F := Ideal) x0) (val_main_v1 (F := Ideal) x1) := by
    funext i
    obtain ⟨r, rfl⟩ : ∃ r : Fin 64, i = ix1 r := ⟨i 0, eq_ix1 i⟩
    rw [Cert.Dice.lossVec_apply]
    exact v20_row x0 x1 r
  unfold val_main_v22 val_main_v21 val_main_cst_8 val_main_cst_9 Cert.Dice.meanOf
  rw [hv]

end Cert.Dice.Ref

end
-- ==== Proof.lean ====
/-
  The dice loss kernel against its jnp reference, over the extended reals.

  Both programs reshape the two arguments to 64 rows of 262144 entries.  The reference sums each row of p, of t and
  of p·t from the zero word, takes per row P / 262144 where T = 0 and 1 − (2·I + 1) / (P + T + 1) elsewhere, and
  averages the 64 losses.  The kernel walks a 4 × 2 grid: a point handles 16 rows and one half of their columns, adds
  the half's sums to three accumulator columns in eight runs of 16384 columns, and at the second half writes the rows'
  losses — with P · 2⁻¹⁸ in place of P / 262144 — to a block of the [64, 128] result array, of which the host then
  averages column 0.  On the extended reals addition is commutative and associative, so the accumulated runs are the
  row sums (no finiteness is needed), and multiplying by the word 2⁻¹⁸ is dividing by the word 2¹⁸; both programs
  therefore end at the mean of the same 64 row losses.  The idealization rewrote nothing, and the three frames are
  the generated frame runs (the reference's is its run with the result dropped).
-/
import proofs.«117182_j24386824307351_2_alg».proof.Defs
import proofs.«117182_j24386824307351_2_alg».proof.Proof.Gen.Kernel
import proofs.«117182_j24386824307351_2_alg».proof.Proof.Gen.Kernel.Skeleton
import proofs.«117182_j24386824307351_2_alg».proof.Proof.Gen.Kernel.Launch
import proofs.«117182_j24386824307351_2_alg».proof.Proof.Gen.Kernel.Points
import proofs.«117182_j24386824307351_2_alg».proof.Proof.Gen.Kernel.Frame
import proofs.«117182_j24386824307351_2_alg».proof.Proof.Gen.KernelIdeal
import proofs.«117182_j24386824307351_2_alg».proof.Proof.Gen.KernelIdeal.Skeleton
import proofs.«117182_j24386824307351_2_alg».proof.Proof.Gen.KernelIdeal.Launch
import proofs.«117182_j24386824307351_2_alg».proof.Proof.Gen.KernelIdeal.Points
import proofs.«117182_j24386824307351_2_alg».proof.Proof.Gen.KernelIdeal.Frame
import proofs.«117182_j24386824307351_2_alg».proof.Proof.Gen.ReferenceIdeal
import proofs.«117182_j24386824307351_2_alg».proof.Proof.Gen.Pre_finite_inputs
import proofs.«117182_j24386824307351_2_alg».proof.Proof.Gen.ReferenceIdeal.Run
import proofs.«117182_j24386824307351_2_alg».proof.Proof.Gen.ReferenceIdeal.Read
import proofs.«117182_j24386824307351_2_alg».proof.Proof.KernValue
import proofs.«117182_j24386824307351_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the mean of the 64 row losses of the two reshaped arguments: the kernel by its
    accumulated runs and its result array, the reference by its row sums. -/
theorem algebraic : Cert.algebraic_KernelIdeal_ReferenceIdeal := by
  intro m ρ m' ρ' _ hagree
  refine ⟨_, Cert.Dice.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Dice.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
